-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S1600000 : Shape := ⟨1, ![1600000]⟩
abbrev S4096x1 : Shape := ⟨2, ![4096, 1]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S4096x1 : S_.BroadcastsInDim S4096x1 (![] : Fin 0 → Fin S4096x1.rank)
  reducesTo_S4096x1_S_d0_1 : S4096x1.ReducesTo [0, 1] S_

variable [Facts]

def fn {F : FTy → Type} [FloatOps F] (main_arg0 : FVec F S4096x2048 .f32) (main_arg1 : FVec F S1600000 .f32) (main_arg2 : FVec F S4096x1 .f32) (main_arg3 : IVec S1600000 32) (main_arg4 : IVec S1600000 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  main_v13
-- ==== Kernel.lean ====
abbrev S4096x2048 : Shape := ⟨2, ![4096, 2048]⟩
abbrev S1600000 : Shape := ⟨1, ![1600000]⟩
abbrev S4096x1 : Shape := ⟨2, ![4096, 1]⟩
abbrev S_ : Shape := ⟨0, ![]⟩
abbrev S4096x4096 : Shape := ⟨2, ![4096, 4096]⟩
abbrev S1600000x1 : Shape := ⟨2, ![1600000, 1]⟩
abbrev S1600000x2 : Shape := ⟨2, ![1600000, 2]⟩
abbrev S512x4096 : Shape := ⟨2, ![512, 4096]⟩
abbrev S512x1 : Shape := ⟨2, ![512, 1]⟩
abbrev S512x2048 : Shape := ⟨2, ![512, 2048]⟩

abbrev nBuf : Space → Nat
  | .hbm => 28
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1600000, .f32⟩
  | .hbm, ⟨2, _⟩ => ⟨S4096x1, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x1, .i32⟩
  | .hbm, ⟨23, _⟩ => ⟨S1600000x2, .i32⟩
  | .hbm, ⟨24, _⟩ => ⟨S4096x4096, .f32⟩
  | .hbm, ⟨25, _⟩ => ⟨S4096x4096, .bf16⟩
  | .hbm, ⟨26, _⟩ => ⟨S4096x2048, .bf16⟩
  | .hbm, ⟨27, _⟩ => ⟨S4096x2048, .f32⟩
  | .local _ .vmem, ⟨0, _⟩ => ⟨S512x4096, .bf16⟩
  | .local _ .vmem, ⟨1, _⟩ => ⟨S512x4096, .bf16⟩
  | .local _ .vmem, ⟨2, _⟩ => ⟨S4096x2048, .bf16⟩
  | .local _ .vmem, ⟨3, _⟩ => ⟨S512x1, .f32⟩
  | .local _ .vmem, ⟨4, _⟩ => ⟨S512x1, .f32⟩
  | .local _ .vmem, ⟨5, _⟩ => ⟨S512x2048, .f32⟩
  | .local _ .vmem, ⟨6, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S4096x4096 : S_.BroadcastsInDim S4096x4096 (![] : Fin 0 → Fin S4096x4096.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x1_S1600000x2_d1 : Shape.Concatenates [S1600000x1, S1600000x1] S1600000x2 1
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S512x1_S512x1_0_0 : ∀ a, (![0, 0] : Fin 2 → Nat) a + S512x1.size a ≤ S512x1.size a
  h_S512x1 : 0 < S512x1.numel
  broadcasts_S512x1_S512x2048 : S512x1.Broadcasts S512x2048
  inb_S512x2048_S512x2048_0_0 : ∀ a, (![0, 0] : Fin 2 → Nat) a + S512x2048.size a ≤ S512x2048.size a
  h_S512x2048 : 0 < S512x2048.numel
  scatter_S4096x4096_S1600000x2_S1600000_n_01_01_1_wf : ScatterDims.WF S4096x4096 S1600000x2 S1600000 [] [0, 1] [0, 1] 1
  dot_S512x4096_S4096x2048_S512x2048_1_0_0_1_n_n_wf : DotDims.WF S512x4096 S4096x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x2048.size a ≤ S4096x2048.size a
  hwx0_1 : ∀ i : grid0.Coords, EltTy.bits .bf16 = 32 ∨ (Rect.block (s := S4096x2048) S4096x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x2048.size a
  hwx0_3 : ∀ i : grid0.Coords, EltTy.bits .f32 = 32 ∨ (Rect.block (s := S4096x2048) S512x2048.size (cc0_transform_3 i) (hinb0_3 i)).WholeWords (EltTy.packing .f32)

variable [Facts₀]

def scatter_S4096x4096_S1600000x2_S1600000_n_01_01_1 : ScatterDims S4096x4096 S1600000x2 S1600000 where
  updateWindowDims := []
  insertedWindowDims := [0, 1]
  scatterDimsToOperandDims := [0, 1]
  indexVectorDim := 1
  wf := scatter_S4096x4096_S1600000x2_S1600000_n_01_01_1_wf
def dot_S512x4096_S4096x2048_S512x2048_1_0_0_1_n_n : DotDims S512x4096 S4096x2048 S512x2048 where
  lhsContracting := [1]
  rhsContracting := [0]
  lhsNonContracting := [0]
  rhsNonContracting := [1]
  lhsBatch := []
  rhsBatch := []
  wf := dot_S512x4096_S4096x2048_S512x2048_1_0_0_1_n_n_wf

abbrev win0_0 : Pipeline.Window sig grid0 :=
  Pipeline.Window.ofSpec (Memref.whole main_v15) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S4096x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S1600000 : Shape := ⟨1, ![1600000]⟩
abbrev S4096x1 : Shape := ⟨2, ![4096, 1]⟩
abbrev S_ : Shape := ⟨0, ![]⟩
abbrev S4096x4096 : Shape := ⟨2, ![4096, 4096]⟩
abbrev S1600000x1 : Shape := ⟨2, ![1600000, 1]⟩
abbrev S1600000x2 : Shape := ⟨2, ![1600000, 2]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1600000, .f32⟩
  | .hbm, ⟨2, _⟩ => ⟨S4096x1, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x1, .i32⟩
  | .hbm, ⟨23, _⟩ => ⟨S1600000x2, .i32⟩
  | .hbm, ⟨24, _⟩ => ⟨S4096x4096, .f32⟩
  | .hbm, ⟨25, _⟩ => ⟨S4096x2048, .f32⟩
  | .hbm, ⟨26, _⟩ => ⟨S4096x2048, .f32⟩
  | .hbm, ⟨27, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x1_S1600000x2_d1 : Shape.Concatenates [S1600000x1, S1600000x1] S1600000x2 1
  bcast_S4096x1_S4096x2048_0_1 : S4096x1.BroadcastsInDim S4096x2048 (![0, 1] : Fin 2 → Fin S4096x2048.rank)
  scatter_S4096x4096_S1600000x2_S1600000_n_01_01_1_wf : ScatterDims.WF S4096x4096 S1600000x2 S1600000 [] [0, 1] [0, 1] 1
  dot_S4096x4096_S4096x2048_S4096x2048_1_0_0_1_n_n_wf : DotDims.WF S4096x4096 S4096x2048 S4096x2048 [1] [0] [0] [1] [] []

variable [Facts₀]

def scatter_S4096x4096_S1600000x2_S1600000_n_01_01_1 : ScatterDims S4096x4096 S1600000x2 S1600000 where
  updateWindowDims := []
  insertedWindowDims := [0, 1]
  scatterDimsToOperandDims := [0, 1]
  indexVectorDim := 1
  wf := scatter_S4096x4096_S1600000x2_S1600000_n_01_01_1_wf
def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf

class Facts : Prop extends Facts₀ where

variable [Facts]
-- ==== Proof.LibKeepdims.lean ====
/-
  Two layout operations read at an index written by coordinates: the COLUMN forms a sum that keeps its reduced axis
  needs. A vector `[a]` cast to a column `[a, 1]` reads, at `(i, u)`, the vector at `i`; a column `[a, 1]` broadcast over
  `[a, b]` reads, at `(p, c)`, the column at `(p, 0)`. (The row forms, `[a] → [1, a]` and `[1, b] → [a, b]`, are in
  Lib/ValueLayout.lean; these are their transposes, proved the same way.) General: nothing here mentions a program.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to `[a, 1]` reads, at `(i, u)`, the operand at `i`, whatever the unit coordinate `u`: the row-major
    positions agree, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- ONE COLUMN BROADCAST over many: an `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.BlockProduct.lean ====
/-
  What the kernel body stores, read at one entry. At a grid point the body holds a block of 512 rows of the weight
  (`w`, 512 × 4096), the whole input (`x`, 4096 × 2048) and the 512 biases of those rows (`b`, 512 × 1), and
  stores ONE value: the block's matrix product with the input, accumulated from the zero matrix, plus the bias column
  repeated along every row. At entry (p, q) that is

      (∑ k, w (p, k) · x (k, q)) + b (p, 0):

  the product accumulated from zero is the plain sum over the 4096 shared coordinates (`0 + s = s`), and the column
  broadcast reads the bias of row p whatever the column q. The two casts of a shape to itself are identities.
-/
import proofs.«122984_j45741401702968_1_alg».proof.Proof.Gen.KernelIdeal.Skeleton
import proofs.«122984_j45741401702968_1_alg».proof.Proof.LibKeepdims
import Idealize.ShloMosaic.Lib.Pipeline.Value
import Idealize.ShloMosaic.Lib.ValueIdx
import Idealize.ShloMosaic.PureOps.Ideal.Laws

noncomputable section

namespace Cert.SparseLinear

open Cert.KernelIdeal Cert.KernelIdeal.Gen Idealize.ShloMosaic Idealize.ShloMosaic.ValueIdx

/-- The left operand's row coordinate is the output's row: it is the one axis of the left operand that is not summed. -/
theorem lhs_row (i : S512x2048.Idx) (s : dot_S512x4096_S4096x2048_S512x2048_1_0_0_1_n_n.contr.Idx) :
    (dot_S512x4096_S4096x2048_S512x2048_1_0_0_1_n_n.lhsIdx i s 0).val = (i 0).val := by
  unfold DotDims.lhsIdx
  rw [dif_neg (show ¬(0 : Fin S512x4096.rank) ∈ dot_S512x4096_S4096x2048_S512x2048_1_0_0_1_n_n.lhsBatch by decide),
    dif_pos (show (0 : Fin S512x4096.rank) ∈ dot_S512x4096_S4096x2048_S512x2048_1_0_0_1_n_n.lhsNonContracting by decide)]
  rfl

/-- The right operand's column coordinate is the output's column. -/
theorem rhs_col (i : S512x2048.Idx) (s : dot_S512x4096_S4096x2048_S512x2048_1_0_0_1_n_n.contr.Idx) :
    (dot_S512x4096_S4096x2048_S512x2048_1_0_0_1_n_n.rhsIdx i s 1).val = (i 1).val := by
  unfold DotDims.rhsIdx
  rw [dif_neg (show ¬(1 : Fin S4096x2048.rank) ∈ dot_S512x4096_S4096x2048_S512x2048_1_0_0_1_n_n.rhsBatch by decide),
    dif_pos (show (1 : Fin S4096x2048.rank) ∈ dot_S512x4096_S4096x2048_S512x2048_1_0_0_1_n_n.rhsNonContracting by decide)]
  rfl

/-- The block's product with the input, accumulated from the zero matrix, at entry (p, q): row p of the block against
    column q of the input, summed over the shared coordinate. -/
theorem product_apply (w : FVec Ideal S512x4096 .bf16) (x : FVec Ideal S4096x2048 .bf16) (p : Fin 512) (q : Fin 2048) :
    matmul dot_S512x4096_S4096x2048_S512x2048_1_0_0_1_n_n none w x (constant (F := Ideal) S512x2048 .f32 0x00000000#32) (ix2 p q)
      = ∑ k : Fin 4096, w (ix2 p k) * x (ix2 k q) := by
  simp only [matmul]
  rw [Ideal.matmul_constant_zero_apply,
    ← Equiv.sum_comp (contrEquiv1 dot_S512x4096_S4096x2048_S512x2048_1_0_0_1_n_n 4096 rfl rfl).symm]
  refine Finset.sum_congr rfl fun k _ => ?_
  have hk := contrEquiv1_symm_val dot_S512x4096_S4096x2048_S512x2048_1_0_0_1_n_n 4096 rfl rfl k
  have el : dot_S512x4096_S4096x2048_S512x2048_1_0_0_1_n_n.lhsIdx (ix2 p q)
      ((contrEquiv1 dot_S512x4096_S4096x2048_S512x2048_1_0_0_1_n_n 4096 rfl rfl).symm k) = ix2 p k :=
    funext fun a => Fin.ext (by
      match a with
      | ⟨0, _⟩ => exact lhs_row _ _
      | ⟨1, _⟩ => exact (dot_S512x4096_S4096x2048_S512x2048_1_0_0_1_n_n.lhsIdx_val_of_single rfl _ _).trans hk)
  have er : dot_S512x4096_S4096x2048_S512x2048_1_0_0_1_n_n.rhsIdx (ix2 p q)
      ((contrEquiv1 dot_S512x4096_S4096x2048_S512x2048_1_0_0_1_n_n 4096 rfl rfl).symm k) = ix2 k q :=
    funext fun a => Fin.ext (by
      match a with
      | ⟨0, _⟩ => exact (dot_S512x4096_S4096x2048_S512x2048_1_0_0_1_n_n.rhsIdx_val_of_single rfl _ _).trans hk
      | ⟨1, _⟩ => exact rhs_col _ _)
  rw [el, er]

/-- THE STORED VALUE at entry (p, q): the block's row p against the input's column q, plus the bias of row p. -/
theorem stored_apply (w : FVec Ideal S512x4096 .bf16) (x : FVec Ideal S4096x2048 .bf16) (b : FVec Ideal S512x1 .f32)
    (p : Fin 512) (q : Fin 2048) :
    k0_pay1 (F := Ideal) w x b (ix2 p q) = (∑ k : Fin 4096, w (ix2 p k) * x (ix2 k q)) + b (ix2 p (0 : Fin 1)) := by
  unfold k0_pay1
  rw [shapeCast_self, shapeCast_self]
  show matmul dot_S512x4096_S4096x2048_S512x2048_1_0_0_1_n_n none w x (constant (F := Ideal) S512x2048 .f32 0x00000000#32) (ix2 p q)
      + broadcastTo S512x2048 b broadcasts_S512x1_S512x2048 (ix2 p q) = _
  rw [product_apply, Cert.Keepdims.broadcastTo_a1_ab_apply]

end Cert.SparseLinear

end
-- ==== Proof.DenseAffine.lean ====
/-
  The function both programs compute: a dense affine map on the extended reals. For a weight matrix `w` (4096 × 4096),
  an input `x` (4096 × 2048) and a bias column `b` (4096 × 1), entry (r, j) of the result is row r of `w` against
  column j of `x`, summed over the 4096 shared coordinates, plus the bias of row r:

      affine w x b (r, j) = (∑ k, w (r, k) · x (k, j)) + b (r, 0).

  Nothing here mentions a program. Each side of the certificate is shown to be this one function of the same three
  arrays, so no law of the extended reals is needed beyond `0 + s = s` (a product accumulated from a zero matrix is
  the plain sum), and the finiteness of the inputs is never used.
-/
import Idealize.ShloMosaic.PureOps.Ideal
import Idealize.ShloMosaic.Lib.ValueIdx

noncomputable section

namespace Cert.SparseLinear

open Idealize.ShloMosaic Idealize.ShloMosaic.ValueIdx

/-- Row `i 0` of `w` against column `i 1` of `x`, plus that row's bias. -/
def affine (w : (⟨2, ![4096, 4096]⟩ : Shape).Idx → EReal) (x : (⟨2, ![4096, 2048]⟩ : Shape).Idx → EReal)
    (b : (⟨2, ![4096, 1]⟩ : Shape).Idx → EReal) : (⟨2, ![4096, 2048]⟩ : Shape).Idx → EReal :=
  fun i => (∑ k : Fin 4096, w (ix2 (i 0) k) * x (ix2 k (i 1))) + b (ix2 (i 0) (0 : Fin 1))

/-- The same, at an index written by its two coordinates. -/
theorem affine_apply (w : (⟨2, ![4096, 4096]⟩ : Shape).Idx → EReal) (x : (⟨2, ![4096, 2048]⟩ : Shape).Idx → EReal)
    (b : (⟨2, ![4096, 1]⟩ : Shape).Idx → EReal) (r : Fin 4096) (j : Fin 2048) :
    affine w x b (ix2 r j) = (∑ k : Fin 4096, w (ix2 r k) * x (ix2 k j)) + b (ix2 r (0 : Fin 1)) := rfl

end Cert.SparseLinear

end
-- ==== Proof.BlockAffine.lean ====
/-
  A block of rows of the dense affine map. Suppose the body's three loaded arrays are: rows r0 … r0 + 511 of a weight
  matrix `W`, the whole input `X`, and rows r0 … r0 + 511 of a bias column `B`. Then the value the body stores at entry
  (p, q) of its block is the dense affine map of (W, X, B) at entry (r0 + p, q) of the whole result: the same sum over the
  shared coordinate, with row p of the block being row r0 + p of `W`, and the same bias.
-/
import proofs.«122984_j45741401702968_1_alg».proof.Proof.BlockProduct
import proofs.«122984_j45741401702968_1_alg».proof.Proof.DenseAffine

noncomputable section

namespace Cert.SparseLinear

open Cert.KernelIdeal Cert.KernelIdeal.Gen Idealize.ShloMosaic Idealize.ShloMosaic.ValueIdx

/-- The stored value at block entry `y` is `affine W X B` at the array entry `i` that lies `r0` rows below it in the same
    column, when the loaded blocks are the rows from `r0` of `W` and of `B` and the whole of `X`. -/
theorem stored_eq_affine (W : (⟨2, ![4096, 4096]⟩ : Shape).Idx → EReal) (X : (⟨2, ![4096, 2048]⟩ : Shape).Idx → EReal)
    (B : (⟨2, ![4096, 1]⟩ : Shape).Idx → EReal)
    (w : FVec Ideal S512x4096 .bf16) (x : FVec Ideal S4096x2048 .bf16) (b : FVec Ideal S512x1 .f32)
    (y : S512x2048.Idx) (i : S4096x2048.Idx) (r0 : Nat)
    (hi0 : (i 0).val = r0 + (y 0).val) (hi1 : (i 1).val = (y 1).val)
    (hw : ∀ (p : Fin 512) (k : Fin 4096) (r : Fin 4096), r.val = r0 + p.val → w (ix2 p k) = W (ix2 r k))
    (hx : x = X)
    (hb : ∀ (p : Fin 512) (r : Fin 4096), r.val = r0 + p.val → b (ix2 p (0 : Fin 1)) = B (ix2 r (0 : Fin 1))) :
    k0_pay1 (F := Ideal) w x b y = affine W X B i := by
  obtain ⟨p, q, rfl⟩ : ∃ (p : Fin 512) (q : Fin 2048), y = ix2 p q := ⟨y 0, y 1, eq_ix2 y⟩
  obtain ⟨r, j, rfl⟩ : ∃ (r : Fin 4096) (j : Fin 2048), i = ix2 r j := ⟨i 0, i 1, eq_ix2 i⟩
  have hr : r.val = r0 + p.val := hi0
  have hj : j = q := Fin.ext hi1
  subst hj hx
  have hw' : ∀ k : Fin 4096, w (ix2 p k) = W (ix2 r k) := fun k => hw p k r hr
  rw [stored_apply, affine_apply]
  simp only [hw', hb p r hr]

end Cert.SparseLinear

end
-- ==== Proof.RowBlocks.lean ====
/-
  From blocks of rows to the whole result. The region runs the body at 8 grid points. At point t the body is handed rows
  512·t … 512·t + 511 of the weight, the whole input, and the same 512 rows of the bias column, and what it stores is
  written back as rows 512·t … 512·t + 511 of the result. By the block form of the stored value, point t therefore writes
  block t of the dense affine map of the three arrays as the region found them. Row r of the result lies in the block of
  point r / 512, so the 8 blocks cover the result, and after the run the result array IS that dense affine map.

  The statements about one point are made for ARBITRARY arrays A0, A1, A2 in the places of the three arrays the region
  found, and only then read at those arrays: what the arrays hold plays no part in which rows a block is.
-/
import proofs.«122984_j45741401702968_1_alg».proof.Proof.Gen.KernelIdeal.Value
import proofs.«122984_j45741401702968_1_alg».proof.Proof.BlockAffine
import Idealize.ShloMosaic.Lib.Pipeline.Value

noncomputable section

namespace Cert.SparseLinear

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

theorem zero_offsets : (![0, 0] : Fin 2 → Nat) = fun _ => 0 := funext fun a => by fin_cases a <;> rfl

/-- The block each window is on at grid point t: the weight's, the bias's and the result's blocks are the t-th blocks of
    rows, the input's is the whole array. Decided over the 8 points. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## One point, over arbitrary arrays -/

section OnePoint

variable (c : Dev nD)
  (A0 : Buf (Elt Ideal) ((c : Thread nD τ).loc (Pipeline.arrRef spec0 0)))
  (A1 : Buf (Elt Ideal) ((c : Thread nD τ).loc (Pipeline.arrRef spec0 1)))
  (A2 : Buf (Elt Ideal) ((c : Thread nD τ).loc (Pipeline.arrRef spec0 2)))

/-- The weight window's block at point t, read off a weight array, is rows 512·t … of that array. -/
theorem weight_block (t : Fin cfg0.N) (p : Fin 512) (k : Fin 4096) (r : Fin 4096) (hr : r.val = 512 * t.val + p.val) :
    (((cfg0.win 0).blk t).view.read (Elt Ideal) A0 : FVec Ideal S512x4096 .bf16) (ix2 p k)
      = (A0 : S4096x4096.Idx → EReal) (ix2 r k) := by
  obtain ⟨e00, e01, -⟩ := block_indices t
  rw [View.read_apply]
  show A0 (((cfg0.win 0).blk t).view.emb (ix2 p k)) = A0 (ix2 r k)
  refine congrArg A0 (funext fun a => Fin.ext ?_)
  match a with
  | ⟨0, _⟩ => show win0_0.index t (0 : Fin 2) * 512 + 1 * p.val = r.val; rw [e00, hr]; omega
  | ⟨1, _⟩ => show win0_0.index t (1 : Fin 2) * 4096 + 1 * k.val = k.val; rw [e01]; omega

/-- The input window's block at every point, read off an input array, is that whole array. -/
theorem input_block (t : Fin cfg0.N) :
    (((cfg0.win 1).blk t).view.read (Elt Ideal) A1 : FVec Ideal S4096x2048 .bf16) = (A1 : S4096x2048.Idx → EReal) := by
  obtain ⟨-, -, e10, e11, -⟩ := block_indices t
  funext y
  rw [View.read_apply]
  show A1 (((cfg0.win 1).blk t).view.emb y) = A1 y
  refine congrArg A1 (funext fun a => Fin.ext ?_)
  match a with
  | ⟨0, _⟩ => show win0_1.index t (0 : Fin 2) * 4096 + 1 * (y 0).val = (y 0).val; rw [e10]; omega
  | ⟨1, _⟩ => show win0_1.index t (1 : Fin 2) * 2048 + 1 * (y 1).val = (y 1).val; rw [e11]; omega

/-- The bias window's block at point t, read off a bias column, is rows 512·t … of that column. -/
theorem bias_block (t : Fin cfg0.N) (p : Fin 512) (r : Fin 4096) (hr : r.val = 512 * t.val + p.val) :
    (((cfg0.win 2).blk t).view.read (Elt Ideal) A2 : FVec Ideal S512x1 .f32) (ix2 p (0 : Fin 1))
      = (A2 : S4096x1.Idx → EReal) (ix2 r (0 : Fin 1)) := by
  obtain ⟨-, -, -, -, e20, e21, -⟩ := block_indices t
  rw [View.read_apply]
  show A2 (((cfg0.win 2).blk t).view.emb (ix2 p (0 : Fin 1))) = A2 (ix2 r (0 : Fin 1))
  refine congrArg A2 (funext fun a => Fin.ext ?_)
  match a with
  | ⟨0, _⟩ => show win0_2.index t (0 : Fin 2) * 512 + 1 * p.val = r.val; rw [e20, hr]; omega
  | ⟨1, _⟩ => show win0_2.index t (1 : Fin 2) * 1 + 1 * 0 = 0; rw [e21]

/-- What the body stores from those three blocks, written back at point t, is block t of the dense affine map of the
    three arrays. -/
theorem block_written (t : Fin cfg0.N) :
    (cfg0.win 3).cut (grid0.coords t)
        (k0_pay1 (F := Ideal) (((cfg0.win 0).blk t).view.read (Elt Ideal) A0) (((cfg0.win 1).blk t).view.read (Elt Ideal) A1)
          (((cfg0.win 2).blk t).view.read (Elt Ideal) A2))
      = ((cfg0.win 3).blk t).view.read (Elt Ideal) (affine A0 A1 A2) := by
  obtain ⟨-, -, -, -, -, -, e30, e31⟩ := block_indices t
  funext y
  show k0_pay1 (F := Ideal) (((cfg0.win 0).blk t).view.read (Elt Ideal) A0) (((cfg0.win 1).blk t).view.read (Elt Ideal) A1)
      (((cfg0.win 2).blk t).view.read (Elt Ideal) A2) y
    = affine A0 A1 A2 (((cfg0.win 3).blk t).view.emb y)
  refine stored_eq_affine A0 A1 A2 (((cfg0.win 0).blk t).view.read (Elt Ideal) A0) (((cfg0.win 1).blk t).view.read (Elt Ideal) A1)
    (((cfg0.win 2).blk t).view.read (Elt Ideal) A2) y (((cfg0.win 3).blk t).view.emb y) (512 * t.val) ?_ ?_
    (fun p k r hr => weight_block c A0 t p k r hr) (input_block c A1 t) (fun p r hr => bias_block c A2 t p r hr)
  · show win0_3.index t (0 : Fin 2) * 512 + 1 * (y 0).val = 512 * t.val + (y 0).val
    rw [e30]; omega
  · show win0_3.index t (1 : Fin 2) * 2048 + 1 * (y 1).val = (y 1).val
    rw [e31]; omega

end OnePoint

/-! ## The eight points, at the arrays the region found -/

variable (m : (ℓ : Loc nD τ sig) → Buf (Elt Ideal) ℓ) (ρ : Dev nD → PrngReg)

/-- WHAT POINT t WRITES BACK is block t of the dense affine map of the arrays as the region found them. -/
theorem flushed_eq (c : Dev nD) (t : Fin cfg0.N) :
    (dats m 0 c).flushed 3 t
      = ((cfg0.win 3).blk t).view.read (Elt Ideal)
          (affine (V m c (Pipeline.arrRef spec0 0)) (V m c (Pipeline.arrRef spec0 1)) (V m c (Pipeline.arrRef spec0 2))) := by
  rw [flushed3]
  unfold out0_3
  rw [View.canon_unit_zero zero_offsets]
  simp only [View.ld_unit_zero (S := S512x4096) zero_offsets, View.ld_unit_zero (S := S4096x2048) zero_offsets,
    View.ld_unit_zero (S := S512x1) zero_offsets]
  unfold iblk
  exact block_written c (V m c (Pipeline.arrRef spec0 0)) (V m c (Pipeline.arrRef spec0 1)) (V m c (Pipeline.arrRef spec0 2)) t

/-- An entry of the result is in point t's block iff each coordinate is in the block's range on its axis. -/
theorem mem_block (t : Fin cfg0.N) (i : S4096x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v17).slice (win0_3.rect t)).set ↔ _
  rw [View.set_slice_whole, Rect.mem_set_unit]
  exact Iff.rfl

/-- Every entry of the result is in some point's block: row r is in the block of point r / 512. -/
theorem covered (i : S4096x2048.Idx) :
    ∃ t : Fin cfg0.N, (cfg0.win 3).flush t = true ∧ i ∈ ((cfg0.win 3).blk t).view.set := by
  have hN : grid0.N = 8 := N_0
  have hi0 : (i 0).val < 4096 := (i 0).isLt
  have hi1 : (i 1).val < 2048 := (i 1).isLt
  obtain ⟨t, ht⟩ : ∃ t : Fin cfg0.N, t.val = (i 0).val / 512 :=
    ⟨⟨(i 0).val / 512, by show (i 0).val / 512 < grid0.N; omega⟩, rfl⟩
  obtain ⟨-, -, -, -, -, -, e30, e31⟩ := block_indices t
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    rw [e30, ht]; omega
  | ⟨1, _⟩ =>
    show win0_3.index t (1 : Fin 2) * 2048 ≤ (i 1).val ∧ (i 1).val < win0_3.index t (1 : Fin 2) * 2048 + 2048
    rw [e31]; omega

/-- THE RESULT ARRAY after the run: the dense affine map of the arrays as the region found them. -/
theorem result_array (c : Dev nD) :
    (dats m 0 c).arrAt 3 cfg0.N
      = affine (V m c (Pipeline.arrRef spec0 0)) (V m c (Pipeline.arrRef spec0 1)) (V m c (Pipeline.arrRef spec0 2)) :=
  (dats m 0 c).arrAt_eq_of_cover 3
    (affine (V m c (Pipeline.arrRef spec0 0)) (V m c (Pipeline.arrRef spec0 1)) (V m c (Pipeline.arrRef spec0 2)))
    (fun t _ => flushed_eq m c t) covered

end Cert.SparseLinear

end
-- ==== Proof.DenseWeight.lean ====
/-
  The arrays the kernel's region is handed. Before the region the kernel's program builds the dense weight from the sparse
  triplets: it starts from the 4096 × 4096 zero matrix and, for each of the 1,600,000 triplets (row, column, value), adds
  the value at (row, column); a negative row or column index is first shifted up by 4096 (an index counted from the end).
  It then changes the float format of the dense weight and of the input, which on the extended reals changes nothing.

  `denseWeight` names that matrix as ONE function of the three sparse arrays, and it is never opened: the reference builds its
  weight by the same operations with the same constants, so the two are the same function (`weight_same`), and everything
  after it — the product with the input and the bias — is proved for an arbitrary weight matrix.
-/
import proofs.«122984_j45741401702968_1_alg».proof.Proof.Gen.KernelIdeal.Frame
import proofs.«122984_j45741401702968_1_alg».proof.Proof.Gen.ReferenceIdeal.Read
import Idealize.ShloMosaic.Lib.StableHlo.Run
import Idealize.ShloMosaic.Lib.ValueIdx

noncomputable section

namespace Cert.SparseLinear

open Cert.KernelIdeal Cert.KernelIdeal.Gen Idealize.ShloMosaic Idealize.ShloMosaic.TcCoe Idealize.SL.Sem
open Idealize.ShloMosaic.StableHlo

/-- The dense weight: the triplets `(rows k, cols k, vals k)` added into the zero matrix, a negative index shifted up by
    4096 first. -/
def denseWeight (vals : (⟨S1600000, .f32⟩ : BufTy).Contents (Elt Ideal)) (rows cols : (⟨S1600000, .i32⟩ : BufTy).Contents (Elt Ideal)) :
    (⟨S4096x4096, .f32⟩ : BufTy).Contents (Elt Ideal) :=
  Host.scatterAdd scatter_S4096x4096_S1600000x2_S1600000_n_01_01_1
    (broadcastInDim S4096x4096 ![] bcast_S_S4096x4096 (constant (F := Ideal) S_ .f32 0x00000000#32))
    (concatenate S1600000x2 1
      [⟨S1600000x1, (broadcastInDim S1600000x1 ![0] bcast_S1600000_S1600000x1_0 (select (cmpi .slt rows (broadcastInDim S1600000 ![] bcast_S_S1600000 (constantI S_ 32 0#32))) (addi rows (broadcastInDim S1600000 ![] bcast_S_S1600000 (constantI S_ 32 4096#32))) rows))⟩,
       ⟨S1600000x1, (broadcastInDim S1600000x1 ![0] bcast_S1600000_S1600000x1_0 (select (cmpi .slt cols (broadcastInDim S1600000 ![] bcast_S_S1600000 (constantI S_ 32 0#32))) (addi cols (broadcastInDim S1600000 ![] bcast_S_S1600000 (constantI S_ 32 4096#32))) cols))⟩]
      concatenates_S1600000x1_S1600000x1_S1600000x2_d1)
    vals

/-- The reference's dense weight is the same function of the sparse arrays: the same operations, the same constants. -/
theorem weight_same (vals : (⟨S1600000, .f32⟩ : BufTy).Contents (Elt Ideal)) (rows cols : (⟨S1600000, .i32⟩ : BufTy).Contents (Elt Ideal)) :
    denseWeight vals rows cols = Cert.ReferenceIdeal.Read.val_main_v14 (F := Ideal) vals rows cols := rfl

/-- On the extended reals a change of float format is the identity, whatever the array. -/
theorem truncf_id {s : Shape} {φ : FTy} (ψ : FTy) (x : FVec Ideal s φ) (h : ψ.bits < φ.bits) :
    (truncf ψ x h : FVec Ideal s ψ) = x := rfl

variable (m : (ℓ : Loc nD τ sig) → Buf (Elt Ideal) ℓ)

set_option maxHeartbeats 1000000 in
/-- The region's first array is the dense weight of the launch contents of the three sparse arguments. -/
theorem entry_weight (c : Dev nD) :
    (V m c main_v15 : S4096x4096.Idx → EReal)
      = denseWeight (m ((c : Thread nD τ).loc main_arg1)) (m ((c : Thread nD τ).loc main_arg3)) (m ((c : Thread nD τ).loc main_arg4)) := by
  refine Eq.trans ?_ (truncf_id (s := S4096x4096) (φ := .f32) .bf16 _ bitsLt_bf16_f32)
  dsimp only [Gen.V, Gen.hostOps0]
  after_results <;> rfl

set_option maxHeartbeats 1000000 in
/-- The region's second array is the input as launched. -/
theorem entry_input (c : Dev nD) :
    (V m c main_v16 : S4096x2048.Idx → EReal) = m ((c : Thread nD τ).loc main_arg0) := by
  refine Eq.trans ?_ (truncf_id (s := S4096x2048) (φ := .f32) .bf16 _ bitsLt_bf16_f32)
  dsimp only [Gen.V, Gen.hostOps0]
  after_results <;> rfl

end Cert.SparseLinear

end
-- ==== Proof.KernelAffine.lean ====
/-
  The kernel's run, read over the arguments as launched. After the run the result array is the dense affine map of the
  arrays the region found (the 8 blocks of rows cover it); the region found the dense weight of the three sparse
  arguments, the input as launched (a change of float format is the identity on the extended reals) and the bias as
  launched (nothing before the region writes it). So the result is

      affine (denseWeight values rows cols) inp bias,

  and every argument array ends as it started.
-/
import proofs.«122984_j45741401702968_1_alg».proof.Proof.RowBlocks
import proofs.«122984_j45741401702968_1_alg».proof.Proof.DenseWeight

noncomputable section

namespace Cert.SparseLinear

open Cert.KernelIdeal Cert.KernelIdeal.Gen Cert.KernelIdeal.Value
open Idealize.ShloMosaic Idealize.ShloMosaic.TcCoe Idealize.SL.Sem

/-- The dense affine map of equal arrays is the same array. -/
theorem affine_congr {w w' : (⟨2, ![4096, 4096]⟩ : Shape).Idx → EReal} {x x' : (⟨2, ![4096, 2048]⟩ : Shape).Idx → EReal}
    {b b' : (⟨2, ![4096, 1]⟩ : Shape).Idx → EReal} (hw : w = w') (hx : x = x') (hb : b = b') :
    affine w x b = affine w' x' b' := by
  subst hw hx hb; rfl

variable (m : (ℓ : Loc nD τ sig) → Buf (Elt Ideal) ℓ) (ρ : Dev nD → PrngReg)

/-- What the region finds in a buffer depends on the buffer only: two names of one buffer hold the same contents. -/
theorem found_of_eq (c : Dev nD) {b b' : Ref sig .tc} (h : b = b') : HEq (V m c b) (V m c b') := by
  subst h; exact HEq.rfl

/-- The weight window's array is the dense weight of the three sparse arguments as launched. -/
theorem found_weight (c : Dev nD) :
    (V m c (Pipeline.arrRef spec0 0) : S4096x4096.Idx → EReal)
      = denseWeight (m ((c : Thread nD τ).loc main_arg1)) (m ((c : Thread nD τ).loc main_arg3)) (m ((c : Thread nD τ).loc main_arg4)) :=
  (eq_of_heq (found_of_eq m c (rfl : Pipeline.arrRef spec0 (0 : Fin 4) = main_v15))).trans (entry_weight m c)

/-- The input window's array is the input as launched. -/
theorem found_input (c : Dev nD) :
    (V m c (Pipeline.arrRef spec0 1) : S4096x2048.Idx → EReal) = m ((c : Thread nD τ).loc main_arg0) :=
  (eq_of_heq (found_of_eq m c (rfl : Pipeline.arrRef spec0 (1 : Fin 4) = main_v16))).trans (entry_input m c)

/-- The bias window's array is the bias as launched. -/
theorem found_bias (c : Dev nD) :
    (V m c (Pipeline.arrRef spec0 2) : S4096x1.Idx → EReal) = m ((c : Thread nD τ).loc main_arg2) :=
  (eq_of_heq (found_of_eq m c (rfl : Pipeline.arrRef spec0 (2 : Fin 4) = main_arg2))).trans (V_main_arg2 m c)

/-- The result array after the run, over the launch contents of the five arguments. -/
theorem result_launch (c : Dev nD) :
    (dats m 0 c).arrAt 3 cfg0.N
      = affine (denseWeight (m ((c : Thread nD τ).loc main_arg1)) (m ((c : Thread nD τ).loc main_arg3)) (m ((c : Thread nD τ).loc main_arg4)))
          (m ((c : Thread nD τ).loc main_arg0)) (m ((c : Thread nD τ).loc main_arg2)) :=
  (result_array m c).trans (affine_congr (found_weight m c) (found_input m c) (found_bias m c))

/-- Every weakly fair execution of the kernel's program terminates with the result at the dense affine map of the
    launch contents and the arguments unchanged. -/
theorem kernel_run : θ_run defs (onTc (τ := τ) (main (F := Ideal))) ⟨m, fun _ => 0, ρ⟩ fun r => ∀ c : Dev nD,
      r.2.mem ((c : Thread nD τ).loc main_v17)
        = affine (denseWeight (m ((c : Thread nD τ).loc main_arg1)) (m ((c : Thread nD τ).loc main_arg3)) (m ((c : Thread nD τ).loc main_arg4)))
            (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_launch m c), (h c).2⟩) (run_blocks m ρ)

end Cert.SparseLinear

end
-- ==== Proof.ReferenceAffine.lean ====
/-
  The reference, read at one entry. Its last three operations are a matrix product of the dense weight with the input,
  the bias column repeated along every row, and their sum. At entry (r, j) the product is the sum over the 4096 shared
  coordinates of weight (r, k) · input (k, j), and the repeated column is the bias of row r: the reference's result is the
  dense affine map of (weight, input, bias), index by index. The dense weight itself — the triplets added into a zero
  matrix — is carried as one unopened function of the three sparse arrays.
-/
import proofs.«122984_j45741401702968_1_alg».proof.Proof.Gen.ReferenceIdeal.Read
import proofs.«122984_j45741401702968_1_alg».proof.Proof.DenseAffine

noncomputable section

namespace Cert.SparseLinear

open Cert.ReferenceIdeal Cert.ReferenceIdeal.Read Idealize.ShloMosaic Idealize.ShloMosaic.ValueIdx

/-- The reference's result is the dense affine map of its dense weight, its input and its bias. -/
theorem reference_eq (x0 : (⟨S4096x2048, .f32⟩ : BufTy).Contents (Elt Ideal)) (x1 : (⟨S1600000, .f32⟩ : BufTy).Contents (Elt Ideal))
    (x2 : (⟨S4096x1, .f32⟩ : BufTy).Contents (Elt Ideal)) (x3 x4 : (⟨S1600000, .i32⟩ : BufTy).Contents (Elt Ideal)) :
    val_main_v17 (F := Ideal) x0 x1 x2 x3 x4 = affine (val_main_v14 (F := Ideal) x1 x3 x4) x0 x2 := by
  funext i
  obtain ⟨r, j, rfl⟩ : ∃ (r : Fin 4096) (j : Fin 2048), i = ix2 r j := ⟨i 0, i 1, eq_ix2 i⟩
  have el : ∀ k : Fin 4096, lidx_main_v15 (ix2 r j) k = ix2 r k := fun k => funext fun a => Fin.ext (by
    match a with
    | ⟨0, _⟩ => rfl
    | ⟨1, _⟩ => rfl)
  have er : ∀ k : Fin 4096, ridx_main_v15 (ix2 r j) k = ix2 k j := fun k => funext fun a => Fin.ext (by
    match a with
    | ⟨0, _⟩ => rfl
    | ⟨1, _⟩ => rfl)
  have eb : idx_main_v16 (ix2 r j) = ix2 r (0 : Fin 1) := funext fun a => Fin.ext (by
    match a with
    | ⟨0, _⟩ => rfl
    | ⟨1, _⟩ => rfl)
  rw [val_main_v17_apply, val_main_v15_apply, val_main_v16_apply, affine_apply]
  simp only [el, er, eb]
  rfl

end Cert.SparseLinear

end
-- ==== Proof.lean ====
/-
  A sparse linear layer against its dense reading, on the extended reals.

  Both programs first turn 1,600,000 triplets (row, column, value) into a dense 4096 × 4096 weight W by adding each value
  at its (row, column) into a zero matrix — the same operations with the same constants, so W is ONE function of the three
  sparse arrays (DenseWeight.lean), never opened. Both then compute

      out (r, j) = (∑ k, W (r, k) · inp (k, j)) + bias (r, 0)          (DenseAffine.lean).

  The reference does so in one matrix product followed by the bias column repeated along the rows (ReferenceAffine.lean).
  The kernel changes the float format of W and of inp (the identity on the extended reals), cuts W, bias and the result
  into 8 blocks of 512 rows, and at each block forms the product accumulated from the zero matrix plus the bias column
  (BlockProduct.lean, BlockAffine.lean); the 8 blocks cover the result (RowBlocks.lean, KernelAffine.lean). A product
  accumulated from zero is the plain sum, so the two results are the same function, entry by entry; no law that could fail
  at an infinity is used, and the inputs' finiteness is not needed for the equality.

  The three runs (termination, no fault, arguments unchanged) are the generated frames of the two kernel programs and the
  generated run of the reference; the idealization rewrote no operation, so there is nothing to preserve.
-/
import proofs.«122984_j45741401702968_1_alg».proof.Defs
import proofs.«122984_j45741401702968_1_alg».proof.Proof.Gen.Kernel
import proofs.«122984_j45741401702968_1_alg».proof.Proof.Gen.Kernel.Skeleton
import proofs.«122984_j45741401702968_1_alg».proof.Proof.Gen.Kernel.Launch
import proofs.«122984_j45741401702968_1_alg».proof.Proof.Gen.Kernel.Points
import proofs.«122984_j45741401702968_1_alg».proof.Proof.Gen.Kernel.Frame
import proofs.«122984_j45741401702968_1_alg».proof.Proof.Gen.KernelIdeal
import proofs.«122984_j45741401702968_1_alg».proof.Proof.Gen.KernelIdeal.Skeleton
import proofs.«122984_j45741401702968_1_alg».proof.Proof.Gen.KernelIdeal.Launch
import proofs.«122984_j45741401702968_1_alg».proof.Proof.Gen.KernelIdeal.Points
import proofs.«122984_j45741401702968_1_alg».proof.Proof.Gen.KernelIdeal.Frame
import proofs.«122984_j45741401702968_1_alg».proof.Proof.Gen.ReferenceIdeal
import proofs.«122984_j45741401702968_1_alg».proof.Proof.Gen.KernelIdeal.Value
import proofs.«122984_j45741401702968_1_alg».proof.Proof.Gen.ReferenceIdeal.Run
import proofs.«122984_j45741401702968_1_alg».proof.Proof.Gen.ReferenceIdeal.Read
import proofs.«122984_j45741401702968_1_alg».proof.Proof.Gen.Pre_finite_inputs
import proofs.«122984_j45741401702968_1_alg».proof.Proof.KernelAffine
import proofs.«122984_j45741401702968_1_alg».proof.Proof.ReferenceAffine
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- And the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the five arguments both programs end with the dense affine map of the dense weight, the
    input and the bias: the kernel block of rows by block of rows, the reference in one product. -/
theorem algebraic : Cert.algebraic_KernelIdeal_ReferenceIdeal := by
  intro m ρ m' ρ' _ hagree
  refine ⟨_, Cert.SparseLinear.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [Cert.ReferenceIdeal.Read.val_main_v17_eq, Cert.SparseLinear.reference_eq, a0, a1, a2, a3, a4,
    ← Cert.SparseLinear.weight_same]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
